-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x32 : Shape := ⟨2, ![32, 32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_arg5 : FVec F S32x32 .f32) (main_arg6 : FVec F S32 .f32) (main_arg7 : FVec F S32x32 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32x32 .f32 := Host.absf main_arg5
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg7
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x32 .f32) (main_arg3 : FVec F S32 .f32) (main_arg4 : FVec F S128x32 .f32) (main_arg5 : FVec F S32x32 .f32) (main_arg6 : FVec F S32 .f32) (main_arg7 : FVec F S32x32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S128x32 .f32 := Host.absf main_arg4
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x32 : Shape := ⟨2, ![32, 32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S100000x32 : Shape := ⟨2, ![100000, 32]⟩
abbrev S5000x128 : Shape := ⟨2, ![5000, 128]⟩
abbrev S5000x1 : Shape := ⟨2, ![5000, 1]⟩
abbrev S5000x32 : Shape := ⟨2, ![5000, 32]⟩
abbrev S1x32 : Shape := ⟨2, ![1, 32]⟩
abbrev S1600000x32 : Shape := ⟨2, ![1600000, 32]⟩
abbrev S10000x32 : Shape := ⟨2, ![10000, 32]⟩
abbrev S10000x1 : Shape := ⟨2, ![10000, 1]⟩

abbrev nBuf : Space → Nat
  | .hbm => 48
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x32, .f32⟩
  | .hbm, ⟨3, _⟩ => ⟨S32, .f32⟩
  | .hbm, ⟨4, _⟩ => ⟨S128x32, .f32⟩
  | .hbm, ⟨5, _⟩ => ⟨S32x32, .f32⟩
  | .hbm, ⟨6, _⟩ => ⟨S32, .f32⟩
  | .hbm, ⟨7, _⟩ => ⟨S32x32, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S100000x1, .f32⟩
  | .hbm, ⟨32, _⟩ => ⟨S100000x32, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x32, .f32⟩
  | .hbm, ⟨42, _⟩ => ⟨S_, .f32⟩
  | .hbm, ⟨43, _⟩ => ⟨S100000x32, .f32⟩
  | .hbm, ⟨44, _⟩ => ⟨S1600000x1, .i32⟩
  | .hbm, ⟨45, _⟩ => ⟨S100000x32, .f32⟩
  | .hbm, ⟨46, _⟩ => ⟨S100000x1, .f32⟩
  | .hbm, ⟨47, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x32, .f32⟩
  | .local _ .vmem, ⟨7, _⟩ => ⟨S32, .f32⟩
  | .local _ .vmem, ⟨8, _⟩ => ⟨S128x32, .f32⟩
  | .local _ .vmem, ⟨9, _⟩ => ⟨S5000x32, .f32⟩
  | .local _ .vmem, ⟨10, _⟩ => ⟨S5000x32, .f32⟩
  | .local _ .vmem, ⟨11, _⟩ => ⟨S10000x32, .f32⟩
  | .local _ .vmem, ⟨12, _⟩ => ⟨S10000x32, .f32⟩
  | .local _ .vmem, ⟨13, _⟩ => ⟨S10000x32, .f32⟩
  | .local _ .vmem, ⟨14, _⟩ => ⟨S10000x32, .f32⟩
  | .local _ .vmem, ⟨15, _⟩ => ⟨S10000x1, .f32⟩
  | .local _ .vmem, ⟨16, _⟩ => ⟨S10000x1, .f32⟩
  | .local _ .vmem, ⟨17, _⟩ => ⟨S32x32, .f32⟩
  | .local _ .vmem, ⟨18, _⟩ => ⟨S32, .f32⟩
  | .local _ .vmem, ⟨19, _⟩ => ⟨S32x32, .f32⟩
  | .local _ .vmem, ⟨20, _⟩ => ⟨S10000x32, .f32⟩
  | .local _ .vmem, ⟨21, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S100000_S100000x1 : S100000.ShapeCasts S100000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  broadcasts_S10000x1_S10000x32 : S10000x1.Broadcasts S10000x32
  inb_S32x32_S32x32_0_0 : ∀ a, (![0, 0] : Fin 2 → Nat) a + S32x32.size a ≤ S32x32.size a
  h_S32x32 : 0 < S32x32.numel
  broadcasts_S1x32_S10000x32 : S1x32.Broadcasts S10000x32
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x32_S5000x32_1_0_0_1_n_n_wf : DotDims.WF S5000x128 S128x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S10000x32_S32x32_S10000x32_1_0_0_1_n_n_wf : DotDims.WF S10000x32 S32x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S128x32.size a
  hwx0_3 : ∀ i : grid0.Coords, EltTy.bits .f32 = 32 ∨ (Rect.block (s := S128x32) S128x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x32.size a ≤ S128x32.size a
  hwx0_5 : ∀ i : grid0.Coords, EltTy.bits .f32 = 32 ∨ (Rect.block (s := S128x32) S128x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x32.size a ≤ S100000x32.size a
  hwx0_6 : ∀ i : grid0.Coords, EltTy.bits .f32 = 32 ∨ (Rect.block (s := S100000x32) S5000x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S100000x32.size a
  hwx1_1 : ∀ i : grid1.Coords, EltTy.bits .f32 = 32 ∨ (Rect.block (s := S100000x32) S10000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32.size a ≤ S32.size a
  hwx1_4 : ∀ i : grid1.Coords, EltTy.bits .f32 = 32 ∨ (Rect.block (s := S32) S32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x32.size a ≤ S32x32.size a
  hwx1_5 : ∀ i : grid1.Coords, EltTy.bits .f32 = 32 ∨ (Rect.block (s := S32x32) S32x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x32.size a ≤ S100000x32.size a
  hwx1_6 : ∀ i : grid1.Coords, EltTy.bits .f32 = 32 ∨ (Rect.block (s := S100000x32) S10000x32.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S5000x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v19) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S10000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S32x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S10000x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x32 : Shape := ⟨2, ![32, 32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x32 : Shape := ⟨2, ![100000, 32]⟩
abbrev S1x32 : Shape := ⟨2, ![1, 32]⟩
abbrev S1600000x32 : Shape := ⟨2, ![1600000, 32]⟩

abbrev nBuf : Space → Nat
  | .hbm => 80
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x32, .f32⟩
  | .hbm, ⟨3, _⟩ => ⟨S32, .f32⟩
  | .hbm, ⟨4, _⟩ => ⟨S128x32, .f32⟩
  | .hbm, ⟨5, _⟩ => ⟨S32x32, .f32⟩
  | .hbm, ⟨6, _⟩ => ⟨S32, .f32⟩
  | .hbm, ⟨7, _⟩ => ⟨S32x32, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x32, .f32⟩
  | .hbm, ⟨38, _⟩ => ⟨S1x32, .f32⟩
  | .hbm, ⟨39, _⟩ => ⟨S100000x32, .f32⟩
  | .hbm, ⟨40, _⟩ => ⟨S100000x32, .f32⟩
  | .hbm, ⟨41, _⟩ => ⟨S100000x32, .f32⟩
  | .hbm, ⟨42, _⟩ => ⟨S100000x32, .f32⟩
  | .hbm, ⟨43, _⟩ => ⟨S_, .f32⟩
  | .hbm, ⟨44, _⟩ => ⟨S100000x32, .f32⟩
  | .hbm, ⟨45, _⟩ => ⟨S100000x32, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x32, .f32⟩
  | .hbm, ⟨55, _⟩ => ⟨S_, .f32⟩
  | .hbm, ⟨56, _⟩ => ⟨S100000x32, .f32⟩
  | .hbm, ⟨57, _⟩ => ⟨S1600000x1, .i32⟩
  | .hbm, ⟨58, _⟩ => ⟨S100000x32, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x32, .f32⟩
  | .hbm, ⟨70, _⟩ => ⟨S100000x32, .f32⟩
  | .hbm, ⟨71, _⟩ => ⟨S100000x32, .f32⟩
  | .hbm, ⟨72, _⟩ => ⟨S1x32, .f32⟩
  | .hbm, ⟨73, _⟩ => ⟨S100000x32, .f32⟩
  | .hbm, ⟨74, _⟩ => ⟨S100000x32, .f32⟩
  | .hbm, ⟨75, _⟩ => ⟨S100000x32, .f32⟩
  | .hbm, ⟨76, _⟩ => ⟨S100000x32, .f32⟩
  | .hbm, ⟨77, _⟩ => ⟨S_, .f32⟩
  | .hbm, ⟨78, _⟩ => ⟨S100000x32, .f32⟩
  | .hbm, ⟨79, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_v55 : Ref sig .tc := ⟨.hbm, 79, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x32_S100000x32_1_0_0_1_n_n_wf : DotDims.WF S100000x128 S128x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x32_S100000x32_1_0_0_1_n_n_wf : DotDims.WF S100000x32 S32x32 S100000x32 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf

class Facts : Prop extends Facts₀ where

variable [Facts]
-- ==== Proof.KernelRun.lean ====
/-
  The kernel's run with its RESULT named.

  @main is four segments: a stretch of host operations, region 0, a second stretch, region 1. The launch over those
  segments ends with every unscoped buffer of the TensorCore at the last boundary's contents `W4` — the fold of the two
  stretches and the two regions' write-backs from the launch memory. Reading the final state against that fold at the
  result buffer and at the eight arguments gives: every weakly fair execution terminates, nothing faulting, the result
  at `W4` of its buffer, the arguments as launched.
-/
import proofs.«157340_j34634616274989_2_alg».proof.Proof.Gen.KernelIdeal.Frame

set_option maxRecDepth 16384

noncomputable section

namespace Cert.Sage.Ker

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates, nothing faulting, with the result buffer at the last
    boundary's contents and the argument arrays as launched. -/
theorem run_result : θ_run defs (onTc (τ := τ) (main (F := F))) ⟨m, fun _ => 0, ρ⟩ (fun r => ∀ c : Dev nD,
      r.2.mem ((c.tc : Thread nD τ).loc main_v31) = W4 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v31 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.Sage.Ker

end
-- ==== Proof.SageSpec.lean ====
/-
  The mathematics both programs compute, stated once.

  A SAGE layer with mean aggregation sends node features `X` (one row per node), the neighbour SUMS `S` (row `p`: the
  sum of the rows of the sources of the edges into node `p`) and the in-degrees `D` to

      out[p, q] = max( ( Σ_k (S[p, k] / max(D[p], 1)) · Wl[k, q]  +  b[q] )  +  Σ_k X[p, k] · Wr[k, q] ,  0 ).

  Only row `p` of `X`, `S` and `D` enters row `p` of the result: that is why a kernel may compute it in blocks of
  rows, and why `sageEntry_congr` below (a block of rows is a restriction of the whole array) is all the algebra the
  equivalence needs. No law of the extended reals beyond reading both sides as this one formula is used, so the inputs'
  finiteness is never opened. The two literals are kept as the words both programs print (`1.0` and `0.0`).
-/
import Idealize.ShloMosaic.PureOps.Ideal
import Idealize.ShloMosaic.Lib.ValueIdx
import Idealize.ShloMosaic.Lib.ValueLayout
import Idealize.ShloMosaic.Lib.Pipeline.Value

noncomputable section

namespace Cert.Sage

open Idealize.ShloMosaic Idealize.ShloMosaic.ValueIdx

/-- Entry `(p, q)` of a SAGE layer's dense half: the mean of the neighbour sums through `Wl`, plus the bias, plus the
    node's own row through `Wr`, clamped below at zero. `n` rows of `d` features in, 32 features out. -/
def sageEntry {n d : ℕ} (X S : (⟨2, ![n, d]⟩ : Shape).Idx → EReal) (D : (⟨1, ![n]⟩ : Shape).Idx → EReal)
    (Wl Wr : (⟨2, ![d, 32]⟩ : Shape).Idx → EReal) (b : (⟨1, ![32]⟩ : Shape).Idx → EReal) (p : Fin n) (q : Fin 32) : EReal :=
  max (((∑ k : Fin d, Ideal.div (S (ix2 p k)) (max (D (ix1 p)) (Ideal.ofBits .f32 0x3F800000#32)) * Wl (ix2 k q)) + b (ix1 q))
        + ∑ k : Fin d, X (ix2 p k) * Wr (ix2 k q))
      (Ideal.ofBits .f32 0x00000000#32)

/-- The layer's dense half as a whole array. -/
def sageLayer {n d : ℕ} (X S : (⟨2, ![n, d]⟩ : Shape).Idx → EReal) (D : (⟨1, ![n]⟩ : Shape).Idx → EReal)
    (Wl Wr : (⟨2, ![d, 32]⟩ : Shape).Idx → EReal) (b : (⟨1, ![32]⟩ : Shape).Idx → EReal) :
    (⟨2, ![n, 32]⟩ : Shape).Idx → EReal :=
  fun i => sageEntry X S D Wl Wr b (i 0) (i 1)

theorem sageLayer_ix2 {n d : ℕ} (X S : (⟨2, ![n, d]⟩ : Shape).Idx → EReal) (D : (⟨1, ![n]⟩ : Shape).Idx → EReal)
    (Wl Wr : (⟨2, ![d, 32]⟩ : Shape).Idx → EReal) (b : (⟨1, ![32]⟩ : Shape).Idx → EReal) (p : Fin n) (q : Fin 32) :
    sageLayer X S D Wl Wr b (ix2 p q) = sageEntry X S D Wl Wr b p q := rfl

/-- Row `p'` of a layer over some arrays is row `p` of the layer over others as soon as the two rows of node features, of
    neighbour sums and the two degrees agree: an entry reads nothing else. -/
theorem sageEntry_congr {n n' d : ℕ} (X S : (⟨2, ![n, d]⟩ : Shape).Idx → EReal) (D : (⟨1, ![n]⟩ : Shape).Idx → EReal)
    (X' S' : (⟨2, ![n', d]⟩ : Shape).Idx → EReal) (D' : (⟨1, ![n']⟩ : Shape).Idx → EReal)
    (Wl Wr : (⟨2, ![d, 32]⟩ : Shape).Idx → EReal) (b : (⟨1, ![32]⟩ : Shape).Idx → EReal) (p : Fin n) (p' : Fin n') (q : Fin 32)
    (hX : ∀ k : Fin d, X' (ix2 p' k) = X (ix2 p k)) (hS : ∀ k : Fin d, S' (ix2 p' k) = S (ix2 p k))
    (hD : D' (ix1 p') = D (ix1 p)) :
    sageEntry X' S' D' Wl Wr b p' q = sageEntry X S D Wl Wr b p q := by
  unfold sageEntry
  rw [hD]
  simp only [hX, hS]

/-- The one column of an `[n, 1]` array as a vector. -/
def col0 {α : Type} {n : ℕ} (x : (⟨2, ![n, 1]⟩ : Shape).Idx → α) : (⟨1, ![n]⟩ : Shape).Idx → α :=
  fun r => x (ix2 (r 0) (0 : Fin 1))

theorem col0_ix1 {α : Type} {n : ℕ} (x : (⟨2, ![n, 1]⟩ : Shape).Idx → α) (p : Fin n) : col0 x (ix1 p) = x (ix2 p (0 : Fin 1)) := rfl

/-! ## Two column layouts read at an index -/

/-- A vector `[a]` cast to the column `[a, 1]` reads, at `(i, 0)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- So the column of a vector cast to `[a, 1]` is the vector. -/
theorem col0_shapeCast {α : Type} {a : ℕ} (x : (⟨1, ![a]⟩ : Shape).Idx → α) (h : (⟨1, ![a]⟩ : Shape).ShapeCasts ⟨2, ![a, 1]⟩) :
    col0 (shapeCast ⟨2, ![a, 1]⟩ x h) = x := by
  funext r
  rw [eq_ix1 r]
  exact shapeCast_a_a1_apply x h (r 0) 0

/-- A column `[a, 1]` broadcast along the rows to `[a, b]` reads, at `(p, c)`, the column at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.Sage

end
-- ==== Proof.Pay0.lean ====
/-
  Region 0's body at an entry: the body's one stored value, read at `(p, q)` of its block, is the specification's entry
  over the BLOCKS it loaded.

  The body divides the block of neighbour sums by the column `max(deg, 1)` repeated along each row, multiplies the
  quotient and the block of node features by the two weight matrices on the matrix unit (into a zero accumulator: a plain
  sum over the 128 contracted features), adds the bias row repeated down the block, and clamps at zero. The casts to
  `bf16` and back are the identity on the extended reals, and the two `shape_cast`s to the same shape change nothing.
-/
import proofs.«157340_j34634616274989_2_alg».proof.Proof.Gen.KernelIdeal.Skeleton
import proofs.«157340_j34634616274989_2_alg».proof.Proof.SageSpec
import Idealize.ShloMosaic.PureOps.Ideal.Laws

noncomputable section

namespace Cert.Sage.Ker

open Idealize.ShloMosaic Idealize.ShloMosaic.ValueIdx Cert.KernelIdeal Cert.KernelIdeal.Gen Cert.Sage

/-! ## The matrix unit's product of a `[5000, 128]` block and a `[128, 32]` matrix, read at an entry -/

theorem dot0_lhs_0 (i : S5000x32.Idx) (k : dot_S5000x128_S128x32_S5000x32_1_0_0_1_n_n.contr.Idx) :
    (dot_S5000x128_S128x32_S5000x32_1_0_0_1_n_n.lhsIdx i k 0).val = (i 0).val := by
  unfold DotDims.lhsIdx
  rw [dif_neg (show ¬(0 : Fin S5000x128.rank) ∈ dot_S5000x128_S128x32_S5000x32_1_0_0_1_n_n.lhsBatch by decide),
    dif_pos (show (0 : Fin S5000x128.rank) ∈ dot_S5000x128_S128x32_S5000x32_1_0_0_1_n_n.lhsNonContracting by decide)]
  rfl
theorem dot0_lhs_1 (i : S5000x32.Idx) (k : dot_S5000x128_S128x32_S5000x32_1_0_0_1_n_n.contr.Idx) :
    (dot_S5000x128_S128x32_S5000x32_1_0_0_1_n_n.lhsIdx i k 1).val = (k ⟨0, by decide⟩).val :=
  dot_S5000x128_S128x32_S5000x32_1_0_0_1_n_n.lhsIdx_val_of_single rfl i k
theorem dot0_rhs_0 (i : S5000x32.Idx) (k : dot_S5000x128_S128x32_S5000x32_1_0_0_1_n_n.contr.Idx) :
    (dot_S5000x128_S128x32_S5000x32_1_0_0_1_n_n.rhsIdx i k 0).val = (k ⟨0, by decide⟩).val :=
  dot_S5000x128_S128x32_S5000x32_1_0_0_1_n_n.rhsIdx_val_of_single rfl i k
theorem dot0_rhs_1 (i : S5000x32.Idx) (k : dot_S5000x128_S128x32_S5000x32_1_0_0_1_n_n.contr.Idx) :
    (dot_S5000x128_S128x32_S5000x32_1_0_0_1_n_n.rhsIdx i k 1).val = (i 1).val := by
  unfold DotDims.rhsIdx
  rw [dif_neg (show ¬(1 : Fin S128x32.rank) ∈ dot_S5000x128_S128x32_S5000x32_1_0_0_1_n_n.rhsBatch by decide),
    dif_pos (show (1 : Fin S128x32.rank) ∈ dot_S5000x128_S128x32_S5000x32_1_0_0_1_n_n.rhsNonContracting by decide)]
  rfl

/-- Into the zero accumulator the product at `(p, q)` is the sum over the contracted feature `k` of `lhs[p, k] · rhs[k, q]`. -/
theorem matmul0_apply (lhs : FVec Ideal S5000x128 .bf16) (rhs : FVec Ideal S128x32 .bf16) (p : Fin 5000) (q : Fin 32) :
    matmul dot_S5000x128_S128x32_S5000x32_1_0_0_1_n_n none lhs rhs (constant (F := Ideal) S5000x32 .f32 0x00000000#32) (ix2 p q)
      = ∑ k : Fin 128, lhs (ix2 p k) * rhs (ix2 k q) := by
  simp only [matmul]
  rw [Ideal.matmul_constant_zero_apply,
    ← Equiv.sum_comp (contrEquiv1 dot_S5000x128_S128x32_S5000x32_1_0_0_1_n_n 128 rfl rfl).symm]
  refine Finset.sum_congr rfl fun k _ => ?_
  have hk := contrEquiv1_symm_val dot_S5000x128_S128x32_S5000x32_1_0_0_1_n_n 128 rfl rfl k
  have el : dot_S5000x128_S128x32_S5000x32_1_0_0_1_n_n.lhsIdx (ix2 p q)
      ((contrEquiv1 dot_S5000x128_S128x32_S5000x32_1_0_0_1_n_n 128 rfl rfl).symm k) = ix2 p k :=
    funext fun a => Fin.ext (by
      match a with
      | ⟨0, _⟩ => exact dot0_lhs_0 _ _
      | ⟨1, _⟩ => exact (dot0_lhs_1 _ _).trans hk)
  have er : dot_S5000x128_S128x32_S5000x32_1_0_0_1_n_n.rhsIdx (ix2 p q)
      ((contrEquiv1 dot_S5000x128_S128x32_S5000x32_1_0_0_1_n_n 128 rfl rfl).symm k) = ix2 k q :=
    funext fun a => Fin.ext (by
      match a with
      | ⟨0, _⟩ => exact (dot0_rhs_0 _ _).trans hk
      | ⟨1, _⟩ => exact dot0_rhs_1 _ _)
  rw [el, er]

/-! ## The stored value at an entry -/

/-- The body's stored value at `(p, q)` of the block is the layer's entry `(p, q)` over the loaded blocks: node features
    `v8`, neighbour sums `v4`, the degree column `v0`, the weights `v11` (for the mean) and `v13` (for the node's own row)
    and the bias `v16`. -/
theorem pay0_apply (v0 : Vec Ideal S5000x1 .f32) (v4 v8 : Vec Ideal S5000x128 .f32) (v11 v13 : Vec Ideal S128x32 .f32)
    (v16 : Vec Ideal S32 .f32) (p : Fin 5000) (q : Fin 32) :
    k0_pay1 v0 v4 v8 v11 v13 v16 (ix2 p q) = sageEntry v8 v4 (col0 v0) v11 v13 v16 p q := by
  unfold k0_pay1
  rw [maximumf_apply, addf_apply, addf_apply, matmul0_apply, matmul0_apply, broadcastTo_1b_ab_apply, shapeCast_a_1a_apply]
  simp only [truncf_apply, divf_apply, shapeCast_self, broadcastTo_a1_ab_apply, maximumf_apply, broadcast_apply]
  rfl

end Cert.Sage.Ker

end
-- ==== Proof.Region0.lean ====
/-
  Region 0 (the first layer's dense half) as one whole-array function of what the region finds in its arrays.

  The grid has 20 points; point `t` works on rows `5000·t … 5000·t + 4999`: its blocks of the node features, of the
  neighbour sums and of the degree column are those rows of the three arrays, the two weight matrices and the bias are
  whole, and what it writes back is rows `5000·t …` of the result. An entry of the layer reads only its own row, so the
  written block is the restriction of the layer over the WHOLE arrays; the 20 blocks tile the `100000` rows (row `r` is
  in block `r / 5000`), so the array after the region IS the layer. Everything is stated for arbitrary region-entry
  contents `V`, because the run enters the region after a stretch of host operations.
-/
import proofs.«157340_j34634616274989_2_alg».proof.Proof.Gen.KernelIdeal.Frame
import proofs.«157340_j34634616274989_2_alg».proof.Proof.Pay0
import Idealize.ShloMosaic.Lib.Pipeline.Value

noncomputable section

namespace Cert.Sage.Ker

open Idealize.ShloMosaic Idealize.ShloMosaic.TcCoe Idealize.ShloMosaic.ValueIdx Idealize.SL.Sem
open Cert.KernelIdeal Cert.KernelIdeal.Gen Cert.Sage
open Idealize.ShloMosaic.Pipeline (Dat)

theorem zeros2 : (![0, 0] : Fin 2 → Nat) = fun _ => 0 := funext fun a => by fin_cases a <;> rfl
theorem zeros1 : (![0] : Fin 1 → Nat) = fun _ => 0 := funext fun a => by fin_cases a <;> rfl

/-- The body's value at entry `j` of a block of 5000 rows that starts at row `5000·t` is the layer's entry over the whole
    arrays at the place `i` of that entry, when the three row blocks are those rows of the arrays and the weights and
    bias are the whole arrays. -/
theorem block0_eq (X S : S100000x128.Idx → EReal) (D1 : S100000x1.Idx → EReal) (Wl Wr : S128x32.Idx → EReal) (b : S32.Idx → EReal)
    (x0 x1 : Vec Ideal S5000x128 .f32) (x2 : Vec Ideal S5000x1 .f32) (x3 x5 : Vec Ideal S128x32 .f32) (x4 : Vec Ideal S32 .f32)
    (t : ℕ)
    (h0 : ∀ (y : S5000x128.Idx) (i : S100000x128.Idx), (i 0).val = t * 5000 + (y 0).val → (i 1).val = (y 1).val → x0 y = X i)
    (h1 : ∀ (y : S5000x128.Idx) (i : S100000x128.Idx), (i 0).val = t * 5000 + (y 0).val → (i 1).val = (y 1).val → x1 y = S i)
    (h2 : ∀ (y : S5000x1.Idx) (i : S100000x1.Idx), (i 0).val = t * 5000 + (y 0).val → (i 1).val = (y 1).val → x2 y = D1 i)
    (h3 : x3 = Wl) (h4 : x4 = b) (h5 : x5 = Wr)
    (j : S5000x32.Idx) (i : S100000x32.Idx) (hi0 : (i 0).val = t * 5000 + (j 0).val) (hi1 : (i 1).val = (j 1).val) :
    k0_pay1 x2 x1 x0 x3 x5 x4 j = sageLayer X S (col0 D1) Wl Wr b i := by
  obtain ⟨p, q, rfl⟩ : ∃ (p : Fin 5000) (q : Fin 32), j = ix2 p q := ⟨j 0, j 1, eq_ix2 j⟩
  obtain ⟨P, Q, rfl⟩ : ∃ (P : Fin 100000) (Q : Fin 32), i = ix2 P Q := ⟨i 0, i 1, eq_ix2 i⟩
  have hP : P.val = t * 5000 + p.val := hi0
  have hQ : Q = q := Fin.ext hi1
  subst hQ h3 h4 h5
  rw [pay0_apply, sageLayer_ix2]
  exact (sageEntry_congr X S (col0 D1) x0 x1 (col0 x2) x3 x5 x4 P p Q (fun k => h0 _ _ hP rfl) (fun k => h1 _ _ hP rfl)
    (h2 _ _ hP rfl))

section Region
variable (V : (c : Dev nD) → (b : Ref sig .tc) → Buf (Elt Ideal) ((c : Thread nD τ).loc b))

/-- The printed index maps over the 20 points: the three row-blocked inputs and the output move with the point along
    the rows, the weights and the bias stay at block zero. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point `t` writes back is block `t` of the layer over the arrays as the region finds them. -/
theorem flushed0_eq (c : Dev nD) (t : Fin cfg0.N) :
    (dat0 V c).flushed 6 t = ((cfg0.win 6).blk t).view.read (Elt Ideal)
      (sageLayer (V c main_arg0) (V c main_v17) (col0 (V c main_v18)) (V c main_arg2) (V c main_arg4) (V c main_arg3)) := by
  show (cfg0.win 6).cut (grid0.coords t) ((dat0 V c).after 6 t) = _
  rw [after0_6]
  unfold out0_6
  rw [View.canon_unit_zero zeros2]
  simp only [View.ld_unit_zero (S := S5000x128) zeros2, View.ld_unit_zero (S := S5000x1) zeros2,
    View.ld_unit_zero (S := S128x32) zeros2, View.ld_unit_zero (S := S32) zeros1]
  obtain ⟨e00, e01, e10, e11, e20, e21, e30, e31, e40, e50, e51, e60, e61⟩ := idx0 t
  funext j
  show k0_pay1 (iblk0 V c 2 t) (iblk0 V c 1 t) (iblk0 V c 0 t) (iblk0 V c 3 t) (iblk0 V c 5 t) (iblk0 V c 4 t) j
    = sageLayer (V c main_arg0) (V c main_v17) (col0 (V c main_v18)) (V c main_arg2) (V c main_arg4) (V c main_arg3)
        (((cfg0.win 6).blk t).view.emb j)
  refine block0_eq (V c main_arg0) (V c main_v17) (V c main_v18) (V c main_arg2) (V c main_arg4) (V c main_arg3)
    (iblk0 V c 0 t) (iblk0 V c 1 t) (iblk0 V c 2 t) (iblk0 V c 3 t) (iblk0 V c 5 t) (iblk0 V c 4 t) t.val
    ?_ ?_ ?_ ?_ ?_ ?_ j _ ?_ ?_
  · intro y i hi0 hi1
    show V c main_arg0 (((cfg0.win 0).blk t).view.emb y) = V c main_arg0 i
    refine congrArg _ (funext fun a => Fin.ext ?_)
    match a with
    | ⟨0, _⟩ => show win0_0.index t (0 : Fin 2) * 5000 + 1 * (y 0).val = (i 0).val; omega
    | ⟨1, _⟩ => show win0_0.index t (1 : Fin 2) * 128 + 1 * (y 1).val = (i 1).val; omega
  · intro y i hi0 hi1
    show V c main_v17 (((cfg0.win 1).blk t).view.emb y) = V c main_v17 i
    refine congrArg _ (funext fun a => Fin.ext ?_)
    match a with
    | ⟨0, _⟩ => show win0_1.index t (0 : Fin 2) * 5000 + 1 * (y 0).val = (i 0).val; omega
    | ⟨1, _⟩ => show win0_1.index t (1 : Fin 2) * 128 + 1 * (y 1).val = (i 1).val; omega
  · intro y i hi0 hi1
    show V c main_v18 (((cfg0.win 2).blk t).view.emb y) = V c main_v18 i
    refine congrArg _ (funext fun a => Fin.ext ?_)
    match a with
    | ⟨0, _⟩ => show win0_2.index t (0 : Fin 2) * 5000 + 1 * (y 0).val = (i 0).val; omega
    | ⟨1, _⟩ => show win0_2.index t (1 : Fin 2) * 1 + 1 * (y 1).val = (i 1).val; omega
  · funext y
    show V c main_arg2 (((cfg0.win 3).blk t).view.emb y) = V c main_arg2 y
    refine congrArg _ (funext fun a => Fin.ext ?_)
    match a with
    | ⟨0, _⟩ => show win0_3.index t (0 : Fin 2) * 128 + 1 * (y 0).val = (y 0).val; omega
    | ⟨1, _⟩ => show win0_3.index t (1 : Fin 2) * 32 + 1 * (y 1).val = (y 1).val; omega
  · funext y
    show V c main_arg3 (((cfg0.win 4).blk t).view.emb y) = V c main_arg3 y
    refine congrArg _ (funext fun a => Fin.ext ?_)
    match a with
    | ⟨0, _⟩ => show win0_4.index t (0 : Fin 1) * 32 + 1 * (y 0).val = (y 0).val; omega
  · funext y
    show V c main_arg4 (((cfg0.win 5).blk t).view.emb y) = V c main_arg4 y
    refine congrArg _ (funext fun a => Fin.ext ?_)
    match a with
    | ⟨0, _⟩ => show win0_5.index t (0 : Fin 2) * 128 + 1 * (y 0).val = (y 0).val; omega
    | ⟨1, _⟩ => show win0_5.index t (1 : Fin 2) * 32 + 1 * (y 1).val = (y 1).val; omega
  · show win0_6.index t (0 : Fin 2) * 5000 + 1 * (j 0).val = t.val * 5000 + (j 0).val; omega
  · show win0_6.index t (1 : Fin 2) * 32 + 1 * (j 1).val = (j 1).val; omega

/-- An index of the result array is in point `t`'s block iff each coordinate is in the block's range on its axis. -/
theorem mem_blk0 (t : Fin cfg0.N) (i : S100000x32.Idx) :
    i ∈ ((cfg0.win 6).blk t).view.set ↔ ∀ a : Fin 2, win0_6.index t a * S5000x32.size a ≤ (i a).val
      ∧ (i a).val < win0_6.index t a * S5000x32.size a + S5000x32.size a := by
  show i ∈ ((View.whole main_v19).slice (win0_6.rect t)).set ↔ _
  rw [View.set_slice_whole, Rect.mem_set_unit]
  exact Iff.rfl

/-- Every entry of the result is in the block of the point that owns its row: row `r` belongs to point `r / 5000`. -/
theorem cover0 (i : S100000x32.Idx) :
    ∃ t : Fin cfg0.N, (cfg0.win 6).flush t = true ∧ i ∈ ((cfg0.win 6).blk t).view.set := by
  have hi0 : (i 0).val < 100000 := (i 0).isLt
  have hi1 : (i 1).val < 32 := (i 1).isLt
  have hN : grid0.N = 20 := N_0
  have ht : (i 0).val / 5000 < grid0.N := by rw [hN]; omega
  refine ⟨⟨(i 0).val / 5000, ht⟩, flush0_6 _, ?_⟩
  rw [mem_blk0]
  obtain ⟨-, -, -, -, -, -, -, -, -, -, -, e60, e61⟩ := idx0 ⟨(i 0).val / 5000, ht⟩
  intro a
  match a with
  | ⟨0, _⟩ =>
    show win0_6.index ⟨(i 0).val / 5000, ht⟩ (0 : Fin 2) * 5000 ≤ (i 0).val
      ∧ (i 0).val < win0_6.index ⟨(i 0).val / 5000, ht⟩ (0 : Fin 2) * 5000 + 5000
    rw [e60]
    show (i 0).val / 5000 * 5000 ≤ (i 0).val ∧ (i 0).val < (i 0).val / 5000 * 5000 + 5000
    omega
  | ⟨1, _⟩ =>
    show win0_6.index ⟨(i 0).val / 5000, ht⟩ (1 : Fin 2) * 32 ≤ (i 1).val
      ∧ (i 1).val < win0_6.index ⟨(i 0).val / 5000, ht⟩ (1 : Fin 2) * 32 + 32
    rw [e61]
    omega

/-- THE ARRAY region 0 leaves: the first layer over the arrays as the region finds them. -/
theorem final0 (c : Dev nD) :
    (dat0 V c).arrAt 6 cfg0.N
      = sageLayer (V c main_arg0) (V c main_v17) (col0 (V c main_v18)) (V c main_arg2) (V c main_arg4) (V c main_arg3) :=
  (dat0 V c).arrAt_eq_of_cover 6 _ (fun t _ => flushed0_eq V c t) cover0

end Region

end Cert.Sage.Ker

end
-- ==== Proof.Pay1.lean ====
/-
  Region 1's body at an entry: the same body as region 0's one layer up — blocks of 10000 rows of 32 features, the
  contraction over 32 — so its one stored value, read at `(p, q)` of its block, is the specification's entry over the
  blocks it loaded. (Here the block of node features also passes through a `shape_cast` to its own shape: the identity.)
-/
import proofs.«157340_j34634616274989_2_alg».proof.Proof.Gen.KernelIdeal.Skeleton
import proofs.«157340_j34634616274989_2_alg».proof.Proof.SageSpec
import Idealize.ShloMosaic.PureOps.Ideal.Laws

noncomputable section

namespace Cert.Sage.Ker

open Idealize.ShloMosaic Idealize.ShloMosaic.ValueIdx Cert.KernelIdeal Cert.KernelIdeal.Gen Cert.Sage

/-! ## The matrix unit's product of a `[10000, 32]` block and a `[32, 32]` matrix, read at an entry -/

theorem dot1_lhs_0 (i : S10000x32.Idx) (k : dot_S10000x32_S32x32_S10000x32_1_0_0_1_n_n.contr.Idx) :
    (dot_S10000x32_S32x32_S10000x32_1_0_0_1_n_n.lhsIdx i k 0).val = (i 0).val := by
  unfold DotDims.lhsIdx
  rw [dif_neg (show ¬(0 : Fin S10000x32.rank) ∈ dot_S10000x32_S32x32_S10000x32_1_0_0_1_n_n.lhsBatch by decide),
    dif_pos (show (0 : Fin S10000x32.rank) ∈ dot_S10000x32_S32x32_S10000x32_1_0_0_1_n_n.lhsNonContracting by decide)]
  rfl
theorem dot1_lhs_1 (i : S10000x32.Idx) (k : dot_S10000x32_S32x32_S10000x32_1_0_0_1_n_n.contr.Idx) :
    (dot_S10000x32_S32x32_S10000x32_1_0_0_1_n_n.lhsIdx i k 1).val = (k ⟨0, by decide⟩).val :=
  dot_S10000x32_S32x32_S10000x32_1_0_0_1_n_n.lhsIdx_val_of_single rfl i k
theorem dot1_rhs_0 (i : S10000x32.Idx) (k : dot_S10000x32_S32x32_S10000x32_1_0_0_1_n_n.contr.Idx) :
    (dot_S10000x32_S32x32_S10000x32_1_0_0_1_n_n.rhsIdx i k 0).val = (k ⟨0, by decide⟩).val :=
  dot_S10000x32_S32x32_S10000x32_1_0_0_1_n_n.rhsIdx_val_of_single rfl i k
theorem dot1_rhs_1 (i : S10000x32.Idx) (k : dot_S10000x32_S32x32_S10000x32_1_0_0_1_n_n.contr.Idx) :
    (dot_S10000x32_S32x32_S10000x32_1_0_0_1_n_n.rhsIdx i k 1).val = (i 1).val := by
  unfold DotDims.rhsIdx
  rw [dif_neg (show ¬(1 : Fin S32x32.rank) ∈ dot_S10000x32_S32x32_S10000x32_1_0_0_1_n_n.rhsBatch by decide),
    dif_pos (show (1 : Fin S32x32.rank) ∈ dot_S10000x32_S32x32_S10000x32_1_0_0_1_n_n.rhsNonContracting by decide)]
  rfl

/-- Into the zero accumulator the product at `(p, q)` is the sum over the contracted feature `k` of `lhs[p, k] · rhs[k, q]`. -/
theorem matmul1_apply (lhs : FVec Ideal S10000x32 .bf16) (rhs : FVec Ideal S32x32 .bf16) (p : Fin 10000) (q : Fin 32) :
    matmul dot_S10000x32_S32x32_S10000x32_1_0_0_1_n_n none lhs rhs (constant (F := Ideal) S10000x32 .f32 0x00000000#32) (ix2 p q)
      = ∑ k : Fin 32, lhs (ix2 p k) * rhs (ix2 k q) := by
  simp only [matmul]
  rw [Ideal.matmul_constant_zero_apply,
    ← Equiv.sum_comp (contrEquiv1 dot_S10000x32_S32x32_S10000x32_1_0_0_1_n_n 32 rfl rfl).symm]
  refine Finset.sum_congr rfl fun k _ => ?_
  have hk := contrEquiv1_symm_val dot_S10000x32_S32x32_S10000x32_1_0_0_1_n_n 32 rfl rfl k
  have el : dot_S10000x32_S32x32_S10000x32_1_0_0_1_n_n.lhsIdx (ix2 p q)
      ((contrEquiv1 dot_S10000x32_S32x32_S10000x32_1_0_0_1_n_n 32 rfl rfl).symm k) = ix2 p k :=
    funext fun a => Fin.ext (by
      match a with
      | ⟨0, _⟩ => exact dot1_lhs_0 _ _
      | ⟨1, _⟩ => exact (dot1_lhs_1 _ _).trans hk)
  have er : dot_S10000x32_S32x32_S10000x32_1_0_0_1_n_n.rhsIdx (ix2 p q)
      ((contrEquiv1 dot_S10000x32_S32x32_S10000x32_1_0_0_1_n_n 32 rfl rfl).symm k) = ix2 k q :=
    funext fun a => Fin.ext (by
      match a with
      | ⟨0, _⟩ => exact (dot1_rhs_0 _ _).trans hk
      | ⟨1, _⟩ => exact dot1_rhs_1 _ _)
  rw [el, er]

/-! ## The stored value at an entry -/

/-- The body's stored value at `(p, q)` of the block is the layer's entry `(p, q)` over the loaded blocks: node features
    `v8`, neighbour sums `v4`, the degree column `v0`, the weights `v12` (for the mean) and `v14` (for the node's own row)
    and the bias `v17`. -/
theorem pay1_apply (v0 : Vec Ideal S10000x1 .f32) (v4 v8 : Vec Ideal S10000x32 .f32) (v12 v14 : Vec Ideal S32x32 .f32)
    (v17 : Vec Ideal S32 .f32) (p : Fin 10000) (q : Fin 32) :
    k1_pay1 v0 v4 v8 v12 v14 v17 (ix2 p q) = sageEntry v8 v4 (col0 v0) v12 v14 v17 p q := by
  unfold k1_pay1
  rw [maximumf_apply, addf_apply, addf_apply, matmul1_apply, matmul1_apply, broadcastTo_1b_ab_apply, shapeCast_a_1a_apply]
  simp only [truncf_apply, divf_apply, shapeCast_self, broadcastTo_a1_ab_apply, maximumf_apply, broadcast_apply]
  rfl

end Cert.Sage.Ker

end
-- ==== Proof.Region1.lean ====
/-
  Region 1 (the second layer's dense half) as one whole-array function of what the region finds in its arrays.

  The same reading as region 0's, one layer up: the grid has 10 points, point `t` works on rows
  `10000·t … 10000·t + 9999` of the first layer's result (32 features), of its neighbour sums and of the degree column;
  the `[32, 32]` weights and the bias are whole. The 10 written blocks tile the `100000` rows (row `r` is in block
  `r / 10000`), so the array after the region IS the second layer over the arrays the region finds.
-/
import proofs.«157340_j34634616274989_2_alg».proof.Proof.Gen.KernelIdeal.Frame
import proofs.«157340_j34634616274989_2_alg».proof.Proof.Pay1
import proofs.«157340_j34634616274989_2_alg».proof.Proof.Region0
import Idealize.ShloMosaic.Lib.Pipeline.Value

noncomputable section

namespace Cert.Sage.Ker

open Idealize.ShloMosaic Idealize.ShloMosaic.TcCoe Idealize.ShloMosaic.ValueIdx Idealize.SL.Sem
open Cert.KernelIdeal Cert.KernelIdeal.Gen Cert.Sage
open Idealize.ShloMosaic.Pipeline (Dat)

/-- The body's value at entry `j` of a block of 10000 rows that starts at row `10000·t` is the layer's entry over the whole
    arrays at the place `i` of that entry, when the three row blocks are those rows of the arrays and the weights and
    bias are the whole arrays. -/
theorem block1_eq (X S : S100000x32.Idx → EReal) (D1 : S100000x1.Idx → EReal) (Wl Wr : S32x32.Idx → EReal) (b : S32.Idx → EReal)
    (x0 x1 : Vec Ideal S10000x32 .f32) (x2 : Vec Ideal S10000x1 .f32) (x3 x5 : Vec Ideal S32x32 .f32) (x4 : Vec Ideal S32 .f32)
    (t : ℕ)
    (h0 : ∀ (y : S10000x32.Idx) (i : S100000x32.Idx), (i 0).val = t * 10000 + (y 0).val → (i 1).val = (y 1).val → x0 y = X i)
    (h1 : ∀ (y : S10000x32.Idx) (i : S100000x32.Idx), (i 0).val = t * 10000 + (y 0).val → (i 1).val = (y 1).val → x1 y = S i)
    (h2 : ∀ (y : S10000x1.Idx) (i : S100000x1.Idx), (i 0).val = t * 10000 + (y 0).val → (i 1).val = (y 1).val → x2 y = D1 i)
    (h3 : x3 = Wl) (h4 : x4 = b) (h5 : x5 = Wr)
    (j : S10000x32.Idx) (i : S100000x32.Idx) (hi0 : (i 0).val = t * 10000 + (j 0).val) (hi1 : (i 1).val = (j 1).val) :
    k1_pay1 x2 x1 x0 x3 x5 x4 j = sageLayer X S (col0 D1) Wl Wr b i := by
  obtain ⟨p, q, rfl⟩ : ∃ (p : Fin 10000) (q : Fin 32), j = ix2 p q := ⟨j 0, j 1, eq_ix2 j⟩
  obtain ⟨P, Q, rfl⟩ : ∃ (P : Fin 100000) (Q : Fin 32), i = ix2 P Q := ⟨i 0, i 1, eq_ix2 i⟩
  have hP : P.val = t * 10000 + p.val := hi0
  have hQ : Q = q := Fin.ext hi1
  subst hQ h3 h4 h5
  rw [pay1_apply, sageLayer_ix2]
  exact (sageEntry_congr X S (col0 D1) x0 x1 (col0 x2) x3 x5 x4 P p Q (fun k => h0 _ _ hP rfl) (fun k => h1 _ _ hP rfl)
    (h2 _ _ hP rfl))

section Region
variable (V : (c : Dev nD) → (b : Ref sig .tc) → Buf (Elt Ideal) ((c : Thread nD τ).loc b))

/-- The printed index maps over the 10 points: the three row-blocked inputs and the output move with the point along
    the rows, the weights and the bias stay at block zero. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point `t` writes back is block `t` of the layer over the arrays as the region finds them. -/
theorem flushed1_eq (c : Dev nD) (t : Fin cfg1.N) :
    (dat1 V c).flushed 6 t = ((cfg1.win 6).blk t).view.read (Elt Ideal)
      (sageLayer (V c main_v19) (V c main_v29) (col0 (V c main_v30)) (V c main_arg5) (V c main_arg7) (V c main_arg6)) := by
  show (cfg1.win 6).cut (grid1.coords t) ((dat1 V c).after 6 t) = _
  rw [after1_6]
  unfold out1_6
  rw [View.canon_unit_zero zeros2]
  simp only [View.ld_unit_zero (S := S10000x32) zeros2, View.ld_unit_zero (S := S10000x1) zeros2,
    View.ld_unit_zero (S := S32x32) zeros2, View.ld_unit_zero (S := S32) zeros1]
  obtain ⟨e00, e01, e10, e11, e20, e21, e30, e31, e40, e50, e51, e60, e61⟩ := idx1 t
  funext j
  show k1_pay1 (iblk1 V c 2 t) (iblk1 V c 1 t) (iblk1 V c 0 t) (iblk1 V c 3 t) (iblk1 V c 5 t) (iblk1 V c 4 t) j
    = sageLayer (V c main_v19) (V c main_v29) (col0 (V c main_v30)) (V c main_arg5) (V c main_arg7) (V c main_arg6)
        (((cfg1.win 6).blk t).view.emb j)
  refine block1_eq (V c main_v19) (V c main_v29) (V c main_v30) (V c main_arg5) (V c main_arg7) (V c main_arg6)
    (iblk1 V c 0 t) (iblk1 V c 1 t) (iblk1 V c 2 t) (iblk1 V c 3 t) (iblk1 V c 5 t) (iblk1 V c 4 t) t.val
    ?_ ?_ ?_ ?_ ?_ ?_ j _ ?_ ?_
  · intro y i hi0 hi1
    show V c main_v19 (((cfg1.win 0).blk t).view.emb y) = V c main_v19 i
    refine congrArg _ (funext fun a => Fin.ext ?_)
    match a with
    | ⟨0, _⟩ => show win1_0.index t (0 : Fin 2) * 10000 + 1 * (y 0).val = (i 0).val; omega
    | ⟨1, _⟩ => show win1_0.index t (1 : Fin 2) * 32 + 1 * (y 1).val = (i 1).val; omega
  · intro y i hi0 hi1
    show V c main_v29 (((cfg1.win 1).blk t).view.emb y) = V c main_v29 i
    refine congrArg _ (funext fun a => Fin.ext ?_)
    match a with
    | ⟨0, _⟩ => show win1_1.index t (0 : Fin 2) * 10000 + 1 * (y 0).val = (i 0).val; omega
    | ⟨1, _⟩ => show win1_1.index t (1 : Fin 2) * 32 + 1 * (y 1).val = (i 1).val; omega
  · intro y i hi0 hi1
    show V c main_v30 (((cfg1.win 2).blk t).view.emb y) = V c main_v30 i
    refine congrArg _ (funext fun a => Fin.ext ?_)
    match a with
    | ⟨0, _⟩ => show win1_2.index t (0 : Fin 2) * 10000 + 1 * (y 0).val = (i 0).val; omega
    | ⟨1, _⟩ => show win1_2.index t (1 : Fin 2) * 1 + 1 * (y 1).val = (i 1).val; omega
  · funext y
    show V c main_arg5 (((cfg1.win 3).blk t).view.emb y) = V c main_arg5 y
    refine congrArg _ (funext fun a => Fin.ext ?_)
    match a with
    | ⟨0, _⟩ => show win1_3.index t (0 : Fin 2) * 32 + 1 * (y 0).val = (y 0).val; omega
    | ⟨1, _⟩ => show win1_3.index t (1 : Fin 2) * 32 + 1 * (y 1).val = (y 1).val; omega
  · funext y
    show V c main_arg6 (((cfg1.win 4).blk t).view.emb y) = V c main_arg6 y
    refine congrArg _ (funext fun a => Fin.ext ?_)
    match a with
    | ⟨0, _⟩ => show win1_4.index t (0 : Fin 1) * 32 + 1 * (y 0).val = (y 0).val; omega
  · funext y
    show V c main_arg7 (((cfg1.win 5).blk t).view.emb y) = V c main_arg7 y
    refine congrArg _ (funext fun a => Fin.ext ?_)
    match a with
    | ⟨0, _⟩ => show win1_5.index t (0 : Fin 2) * 32 + 1 * (y 0).val = (y 0).val; omega
    | ⟨1, _⟩ => show win1_5.index t (1 : Fin 2) * 32 + 1 * (y 1).val = (y 1).val; omega
  · show win1_6.index t (0 : Fin 2) * 10000 + 1 * (j 0).val = t.val * 10000 + (j 0).val; omega
  · show win1_6.index t (1 : Fin 2) * 32 + 1 * (j 1).val = (j 1).val; omega

/-- An index of the result array is in point `t`'s block iff each coordinate is in the block's range on its axis. -/
theorem mem_blk1 (t : Fin cfg1.N) (i : S100000x32.Idx) :
    i ∈ ((cfg1.win 6).blk t).view.set ↔ ∀ a : Fin 2, win1_6.index t a * S10000x32.size a ≤ (i a).val
      ∧ (i a).val < win1_6.index t a * S10000x32.size a + S10000x32.size a := by
  show i ∈ ((View.whole main_v31).slice (win1_6.rect t)).set ↔ _
  rw [View.set_slice_whole, Rect.mem_set_unit]
  exact Iff.rfl

/-- Every entry of the result is in the block of the point that owns its row: row `r` belongs to point `r / 10000`. -/
theorem cover1 (i : S100000x32.Idx) :
    ∃ t : Fin cfg1.N, (cfg1.win 6).flush t = true ∧ i ∈ ((cfg1.win 6).blk t).view.set := by
  have hi0 : (i 0).val < 100000 := (i 0).isLt
  have hi1 : (i 1).val < 32 := (i 1).isLt
  have hN : grid1.N = 10 := N_1
  have ht : (i 0).val / 10000 < grid1.N := by rw [hN]; omega
  refine ⟨⟨(i 0).val / 10000, ht⟩, flush1_6 _, ?_⟩
  rw [mem_blk1]
  obtain ⟨-, -, -, -, -, -, -, -, -, -, -, e60, e61⟩ := idx1 ⟨(i 0).val / 10000, ht⟩
  intro a
  match a with
  | ⟨0, _⟩ =>
    show win1_6.index ⟨(i 0).val / 10000, ht⟩ (0 : Fin 2) * 10000 ≤ (i 0).val
      ∧ (i 0).val < win1_6.index ⟨(i 0).val / 10000, ht⟩ (0 : Fin 2) * 10000 + 10000
    rw [e60]
    show (i 0).val / 10000 * 10000 ≤ (i 0).val ∧ (i 0).val < (i 0).val / 10000 * 10000 + 10000
    omega
  | ⟨1, _⟩ =>
    show win1_6.index ⟨(i 0).val / 10000, ht⟩ (1 : Fin 2) * 32 ≤ (i 1).val
      ∧ (i 1).val < win1_6.index ⟨(i 0).val / 10000, ht⟩ (1 : Fin 2) * 32 + 32
    rw [e61]
    omega

/-- THE ARRAY region 1 leaves: the second layer over the arrays as the region finds them. -/
theorem final1 (c : Dev nD) :
    (dat1 V c).arrAt 6 cfg1.N
      = sageLayer (V c main_v19) (V c main_v29) (col0 (V c main_v30)) (V c main_arg5) (V c main_arg7) (V c main_arg6) :=
  (dat1 V c).arrAt_eq_of_cover 6 _ (fun t _ => flushed1_eq V c t) cover1

end Region

end Cert.Sage.Ker

end
-- ==== Proof.RefLayers.lean ====
/-
  The reference's two layers are the specification's layer.

  Read one operation at a time, the reference's first `relu` result is, at entry `(p, q)`,
  `max((Σ_k (S[p,k] / max(D[p], 1)) · W1_l[k,q] + b1[q]) + Σ_k x[p,k] · W1_r[k,q], 0)`, where `S` is the scatter-added
  gather of `x` (the neighbour sums) and `D` the scatter-added ones (the in-degrees): the two broadcasts of
  `max(D, 1)` only repeat entry `p` along the row, the two broadcasts of the bias repeat entry `q` down the column, and
  each `dot_general` is the plain sum over the one contracted axis. That is `Sage.sageLayer`. The second layer is the same
  reading one layer up, its features the first layer's result. The gathers and scatter-adds themselves are never opened:
  they enter only as the arrays `S` and `D`.
-/
import proofs.«157340_j34634616274989_2_alg».proof.Proof.Gen.ReferenceIdeal.Read
import proofs.«157340_j34634616274989_2_alg».proof.Proof.SageSpec

noncomputable section

namespace Cert.Sage.Ref

open Idealize.ShloMosaic Idealize.ShloMosaic.ValueIdx Cert.ReferenceIdeal Cert.ReferenceIdeal.Read Cert.Sage

/-! ## The first layer -/

/-- The mean's entry `(P, k)`: the neighbour sum there over `max(deg[P], 1)` — the divisor is the degree vector, clamped
    below at one, repeated along the row. -/
theorem mean1_apply (x0 : (⟨S100000x128, .f32⟩ : BufTy).Contents (Elt Ideal)) (x1 : (⟨S2x1600000, .i32⟩ : BufTy).Contents (Elt Ideal))
    (P : Fin 100000) (k : Fin 128) :
    val_main_v22 (F := Ideal) x0 x1 (ix2 P k)
      = Ideal.div (val_main_v13 (F := Ideal) x0 x1 (ix2 P k))
          (max (val_main_v17 (F := Ideal) x1 (ix1 P)) (Ideal.ofBits .f32 0x3F800000#32)) := by
  have e : idx_main_v20 (idx_main_v21 (ix2 P k)) = ix1 P :=
    funext fun a => Fin.ext (by match a with | ⟨0, _⟩ => rfl)
  rw [val_main_v22_apply, val_main_v21_apply, val_main_v20_apply, val_main_v19_apply, val_main_v18_apply,
    val_main_cst_3_apply, e, Ideal.hostDivf_def, Ideal.maximumf_def, Ideal.ofBits_def]

/-- The first layer: `relu(mean · W1_l + b1 + x · W1_r)` of the reference is the specification's layer over the node
    features, their scatter-added neighbour sums and the scatter-added degrees. -/
theorem layer1_eq (x0 : (⟨S100000x128, .f32⟩ : BufTy).Contents (Elt Ideal)) (x1 : (⟨S2x1600000, .i32⟩ : BufTy).Contents (Elt Ideal))
    (x2 : (⟨S128x32, .f32⟩ : BufTy).Contents (Elt Ideal)) (x3 : (⟨S32, .f32⟩ : BufTy).Contents (Elt Ideal))
    (x4 : (⟨S128x32, .f32⟩ : BufTy).Contents (Elt Ideal)) :
    val_main_v29 (F := Ideal) x0 x1 x2 x3 x4
      = sageLayer x0 (val_main_v13 (F := Ideal) x0 x1) (val_main_v17 (F := Ideal) x1) x2 x4 x3 := by
  funext i
  obtain ⟨p, q, rfl⟩ : ∃ (p : Fin 100000) (q : Fin 32), i = ix2 p q := ⟨i 0, i 1, eq_ix2 i⟩
  have eL : ∀ k : Fin 128, lidx_main_v23 (ix2 p q) k = ix2 p k := fun k =>
    funext fun a => Fin.ext (by match a with | ⟨0, _⟩ => rfl | ⟨1, _⟩ => rfl)
  have eR : ∀ k : Fin 128, ridx_main_v23 (ix2 p q) k = ix2 k q := fun k =>
    funext fun a => Fin.ext (by match a with | ⟨0, _⟩ => rfl | ⟨1, _⟩ => rfl)
  have eL' : ∀ k : Fin 128, lidx_main_v27 (ix2 p q) k = ix2 p k := fun k =>
    funext fun a => Fin.ext (by match a with | ⟨0, _⟩ => rfl | ⟨1, _⟩ => rfl)
  have eR' : ∀ k : Fin 128, ridx_main_v27 (ix2 p q) k = ix2 k q := fun k =>
    funext fun a => Fin.ext (by match a with | ⟨0, _⟩ => rfl | ⟨1, _⟩ => rfl)
  have eB : idx_main_v24 (idx_main_v25 (ix2 p q)) = ix1 q :=
    funext fun a => Fin.ext (by match a with | ⟨0, _⟩ => rfl)
  rw [sageLayer_ix2, val_main_v29_apply, val_main_v28_apply, val_main_v26_apply, val_main_v23_apply, val_main_v27_apply,
    val_main_v25_apply, val_main_v24_apply, val_main_call0_v0_apply, val_main_call0_cst_apply, eB,
    Ideal.maximumf_def, Ideal.addf_def, Ideal.addf_def, Ideal.ofBits_def]
  unfold sageEntry
  refine congrArg₂ max (congrArg₂ (· + ·) (congrArg₂ (· + ·) (Finset.sum_congr rfl fun k _ => ?_) rfl)
    (Finset.sum_congr rfl fun k _ => ?_)) rfl
  · rw [eL k, eR k, mean1_apply]
  · rw [eL' k, eR' k]

/-! ## The second layer -/

/-- The second mean's entry `(P, k)`. -/
theorem mean2_apply (x0 : (⟨S100000x128, .f32⟩ : BufTy).Contents (Elt Ideal)) (x1 : (⟨S2x1600000, .i32⟩ : BufTy).Contents (Elt Ideal))
    (x2 : (⟨S128x32, .f32⟩ : BufTy).Contents (Elt Ideal)) (x3 : (⟨S32, .f32⟩ : BufTy).Contents (Elt Ideal))
    (x4 : (⟨S128x32, .f32⟩ : BufTy).Contents (Elt Ideal)) (P : Fin 100000) (k : Fin 32) :
    val_main_v48 (F := Ideal) x0 x1 x2 x3 x4 (ix2 P k)
      = Ideal.div (val_main_v39 (F := Ideal) x0 x1 x2 x3 x4 (ix2 P k))
          (max (val_main_v43 (F := Ideal) x1 (ix1 P)) (Ideal.ofBits .f32 0x3F800000#32)) := by
  have e : idx_main_v46 (idx_main_v47 (ix2 P k)) = ix1 P :=
    funext fun a => Fin.ext (by match a with | ⟨0, _⟩ => rfl)
  rw [val_main_v48_apply, val_main_v47_apply, val_main_v46_apply, val_main_v45_apply, val_main_v44_apply,
    val_main_cst_9_apply, e, Ideal.hostDivf_def, Ideal.maximumf_def, Ideal.ofBits_def]

/-- The second layer: the same reading one layer up, over the first layer's result, its scatter-added neighbour sums
    and the degrees. -/
theorem layer2_eq (x0 : (⟨S100000x128, .f32⟩ : BufTy).Contents (Elt Ideal)) (x1 : (⟨S2x1600000, .i32⟩ : BufTy).Contents (Elt Ideal))
    (x2 : (⟨S128x32, .f32⟩ : BufTy).Contents (Elt Ideal)) (x3 : (⟨S32, .f32⟩ : BufTy).Contents (Elt Ideal))
    (x4 : (⟨S128x32, .f32⟩ : BufTy).Contents (Elt Ideal)) (x5 : (⟨S32x32, .f32⟩ : BufTy).Contents (Elt Ideal))
    (x6 : (⟨S32, .f32⟩ : BufTy).Contents (Elt Ideal)) (x7 : (⟨S32x32, .f32⟩ : BufTy).Contents (Elt Ideal)) :
    val_main_v55 (F := Ideal) x0 x1 x2 x3 x4 x5 x6 x7
      = sageLayer (val_main_v29 (F := Ideal) x0 x1 x2 x3 x4) (val_main_v39 (F := Ideal) x0 x1 x2 x3 x4)
          (val_main_v43 (F := Ideal) x1) x5 x7 x6 := by
  funext i
  obtain ⟨p, q, rfl⟩ : ∃ (p : Fin 100000) (q : Fin 32), i = ix2 p q := ⟨i 0, i 1, eq_ix2 i⟩
  have eL : ∀ k : Fin 32, lidx_main_v49 (ix2 p q) k = ix2 p k := fun k =>
    funext fun a => Fin.ext (by match a with | ⟨0, _⟩ => rfl | ⟨1, _⟩ => rfl)
  have eR : ∀ k : Fin 32, ridx_main_v49 (ix2 p q) k = ix2 k q := fun k =>
    funext fun a => Fin.ext (by match a with | ⟨0, _⟩ => rfl | ⟨1, _⟩ => rfl)
  have eL' : ∀ k : Fin 32, lidx_main_v53 (ix2 p q) k = ix2 p k := fun k =>
    funext fun a => Fin.ext (by match a with | ⟨0, _⟩ => rfl | ⟨1, _⟩ => rfl)
  have eR' : ∀ k : Fin 32, ridx_main_v53 (ix2 p q) k = ix2 k q := fun k =>
    funext fun a => Fin.ext (by match a with | ⟨0, _⟩ => rfl | ⟨1, _⟩ => rfl)
  have eB : idx_main_v50 (idx_main_v51 (ix2 p q)) = ix1 q :=
    funext fun a => Fin.ext (by match a with | ⟨0, _⟩ => rfl)
  rw [sageLayer_ix2, val_main_v55_apply, val_main_v54_apply, val_main_v52_apply, val_main_v49_apply, val_main_v53_apply,
    val_main_v51_apply, val_main_v50_apply, val_main_call1_v0_apply, val_main_call1_cst_apply, eB,
    Ideal.maximumf_def, Ideal.addf_def, Ideal.addf_def, Ideal.ofBits_def]
  unfold sageEntry
  refine congrArg₂ max (congrArg₂ (· + ·) (congrArg₂ (· + ·) (Finset.sum_congr rfl fun k _ => ?_) rfl)
    (Finset.sum_congr rfl fun k _ => ?_)) rfl
  · rw [eL k, eR k, mean2_apply]
  · rw [eL' k, eR' k]

end Cert.Sage.Ref

end
-- ==== Proof.KernelValue.lean ====
/-
  The kernel's result as the reference's function of the arguments.

  The run's last boundary holds, at the result buffer, what region 1 wrote: the second layer over the arrays that
  region finds. Those are read back through @main: the second stretch of host operations gathers the first layer's
  result along the edges' sources and scatter-adds it at their targets (the same two operations, on the same index
  arrays, as the reference's), and reshapes the degree vector to a column; region 0 left the first layer over the
  arrays IT found; the first stretch computed the index arrays, the degrees and the neighbour sums of the node
  features from the arguments. Stage by stage these are the reference's own stages of the same arguments — its
  gather and scatter-add are the same functions applied to equal operands, so they are matched as wholes and never
  opened — and the two dense halves are the specification's layer on both sides. (The reference computes the degree
  vector twice; the kernel once: the two terms are one.)
-/
import proofs.«157340_j34634616274989_2_alg».proof.Proof.Gen.KernelIdeal.Frame
import proofs.«157340_j34634616274989_2_alg».proof.Proof.Gen.ReferenceIdeal.Read
import proofs.«157340_j34634616274989_2_alg».proof.Proof.Region0
import proofs.«157340_j34634616274989_2_alg».proof.Proof.Region1
import proofs.«157340_j34634616274989_2_alg».proof.Proof.RefLayers

set_option maxRecDepth 16384

noncomputable section

namespace Cert.Sage.Ker

open Idealize.ShloMosaic Idealize.ShloMosaic.TcCoe Idealize.SL.Sem Idealize.ShloMosaic.StableHlo
open Cert.KernelIdeal Cert.KernelIdeal.Gen Cert.Sage
open Cert.ReferenceIdeal.Read (val_main_v1 val_main_v3 val_main_v13 val_main_v17 val_main_v29 val_main_v39 val_main_v43 val_main_v55)

variable (m : (ℓ : Loc nD τ sig) → Buf (Elt Ideal) ℓ) (ρ : Dev nD → PrngReg) (c : Dev nD)

/-! ## The arguments as launched -/

abbrev arg0 := m ((c.tc : Thread nD τ).loc main_arg0)
abbrev arg1 := m ((c.tc : Thread nD τ).loc main_arg1)
abbrev arg2 := m ((c.tc : Thread nD τ).loc main_arg2)
abbrev arg3 := m ((c.tc : Thread nD τ).loc main_arg3)
abbrev arg4 := m ((c.tc : Thread nD τ).loc main_arg4)
abbrev arg5 := m ((c.tc : Thread nD τ).loc main_arg5)
abbrev arg6 := m ((c.tc : Thread nD τ).loc main_arg6)
abbrev arg7 := m ((c.tc : Thread nD τ).loc main_arg7)

/-- The reference recomputes the in-degrees for its second layer: the same scatter-add of ones. -/
theorem deg_again (x1 : (⟨Cert.ReferenceIdeal.S2x1600000, .i32⟩ : BufTy).Contents (Elt Ideal)) :
    val_main_v43 (F := Ideal) x1 = val_main_v17 (F := Ideal) x1 := rfl

/-! ## After the first stretch: what region 0 finds -/

set_option maxHeartbeats 1000000 in
/-- The edges' sources. -/
theorem entry0_src : W1 m ρ c (Proc.devRef .tc main_v1) = val_main_v1 (F := Ideal) (arg1 m c) := by
  show StableHlo.after hostOps0 (W0 m ρ c) (Proc.devRef .tc main_v1) = _
  after_results_simp
  rfl

set_option maxHeartbeats 1000000 in
/-- The edges' targets. -/
theorem entry0_dst : W1 m ρ c (Proc.devRef .tc main_v3) = val_main_v3 (F := Ideal) (arg1 m c) := by
  show StableHlo.after hostOps0 (W0 m ρ c) (Proc.devRef .tc main_v3) = _
  after_results_simp
  rfl

set_option maxHeartbeats 1000000 in
/-- The in-degrees: ones scatter-added at the targets. -/
theorem entry0_deg : W1 m ρ c (Proc.devRef .tc main_v7) = val_main_v17 (F := Ideal) (arg1 m c) := by
  show StableHlo.after hostOps0 (W0 m ρ c) (Proc.devRef .tc main_v7) = _
  after_results_simp
  rfl

set_option maxHeartbeats 1000000 in
/-- The neighbour sums of the node features: their rows gathered at the sources, scatter-added at the targets. -/
theorem entry0_sums : W1 m ρ c (Proc.devRef .tc main_v17) = val_main_v13 (F := Ideal) (arg0 m c) (arg1 m c) := by
  show StableHlo.after hostOps0 (W0 m ρ c) (Proc.devRef .tc main_v17) = _
  after_results_simp
  rfl

set_option maxHeartbeats 1000000 in
/-- The degree column: the in-degrees reshaped. -/
theorem entry0_degcol : W1 m ρ c (Proc.devRef .tc main_v18)
    = shapeCast S100000x1 (val_main_v17 (F := Ideal) (arg1 m c)) shapeCasts_S100000_S100000x1 := by
  show StableHlo.after hostOps0 (W0 m ρ c) (Proc.devRef .tc main_v18) = _
  after_results_simp
  rfl

set_option maxHeartbeats 1000000 in
theorem entry0_arg0 : W1 m ρ c (Proc.devRef .tc main_arg0) = arg0 m c := by
  show StableHlo.after hostOps0 (W0 m ρ c) (Proc.devRef .tc main_arg0) = _
  after_results_simp <;> rfl
set_option maxHeartbeats 1000000 in
theorem entry0_arg2 : W1 m ρ c (Proc.devRef .tc main_arg2) = arg2 m c := by
  show StableHlo.after hostOps0 (W0 m ρ c) (Proc.devRef .tc main_arg2) = _
  after_results_simp <;> rfl
set_option maxHeartbeats 1000000 in
theorem entry0_arg3 : W1 m ρ c (Proc.devRef .tc main_arg3) = arg3 m c := by
  show StableHlo.after hostOps0 (W0 m ρ c) (Proc.devRef .tc main_arg3) = _
  after_results_simp <;> rfl
set_option maxHeartbeats 1000000 in
theorem entry0_arg4 : W1 m ρ c (Proc.devRef .tc main_arg4) = arg4 m c := by
  show StableHlo.after hostOps0 (W0 m ρ c) (Proc.devRef .tc main_arg4) = _
  after_results_simp <;> rfl

set_option maxHeartbeats 1000000 in
theorem entry0_arg5 : W1 m ρ c (Proc.devRef .tc main_arg5) = arg5 m c := by
  show StableHlo.after hostOps0 (W0 m ρ c) (Proc.devRef .tc main_arg5) = _
  after_results_simp <;> rfl
set_option maxHeartbeats 1000000 in
theorem entry0_arg6 : W1 m ρ c (Proc.devRef .tc main_arg6) = arg6 m c := by
  show StableHlo.after hostOps0 (W0 m ρ c) (Proc.devRef .tc main_arg6) = _
  after_results_simp <;> rfl
set_option maxHeartbeats 1000000 in
theorem entry0_arg7 : W1 m ρ c (Proc.devRef .tc main_arg7) = arg7 m c := by
  show StableHlo.after hostOps0 (W0 m ρ c) (Proc.devRef .tc main_arg7) = _
  after_results_simp <;> rfl

/-! ## After region 0: the first layer -/

/-- Region 0 leaves the reference's first layer of the arguments. -/
theorem layer1 : W2 m ρ c (Proc.devRef .tc main_v19)
    = val_main_v29 (F := Ideal) (arg0 m c) (arg1 m c) (arg2 m c) (arg3 m c) (arg4 m c) := by
  refine (W2_arr m ρ c 6).trans ((final0 (V1 m ρ) c).trans ?_)
  show sageLayer (W1 m ρ c (Proc.devRef .tc main_arg0)) (W1 m ρ c (Proc.devRef .tc main_v17))
      (col0 (W1 m ρ c (Proc.devRef .tc main_v18))) (W1 m ρ c (Proc.devRef .tc main_arg2))
      (W1 m ρ c (Proc.devRef .tc main_arg4)) (W1 m ρ c (Proc.devRef .tc main_arg3)) = _
  rw [entry0_arg0, entry0_sums, entry0_degcol, entry0_arg2, entry0_arg3, entry0_arg4, col0_shapeCast]
  exact (Cert.Sage.Ref.layer1_eq _ _ _ _ _).symm

/-! ## After the second stretch: what region 1 finds -/

set_option maxHeartbeats 1000000 in
/-- The first layer's result is not touched by the second stretch. -/
theorem entry1_feat : W3 m ρ c (Proc.devRef .tc main_v19)
    = val_main_v29 (F := Ideal) (arg0 m c) (arg1 m c) (arg2 m c) (arg3 m c) (arg4 m c) := by
  show StableHlo.after hostOps1 (W2 m ρ c) (Proc.devRef .tc main_v19) = _
  after_results_simp
  exact layer1 m ρ c

set_option maxHeartbeats 1000000 in
/-- The neighbour sums of the first layer's result. -/
theorem entry1_sums : W3 m ρ c (Proc.devRef .tc main_v29)
    = val_main_v39 (F := Ideal) (arg0 m c) (arg1 m c) (arg2 m c) (arg3 m c) (arg4 m c) := by
  show StableHlo.after hostOps1 (W2 m ρ c) (Proc.devRef .tc main_v29) = _
  after_results_simp
  rw [W2_of_ne m ρ c main_v3 (by decide), W2_of_ne m ρ c main_v1 (by decide), entry0_dst, entry0_src, layer1]
  rfl

set_option maxHeartbeats 1000000 in
/-- The degree column again. -/
theorem entry1_degcol : W3 m ρ c (Proc.devRef .tc main_v30)
    = shapeCast S100000x1 (val_main_v17 (F := Ideal) (arg1 m c)) shapeCasts_S100000_S100000x1 := by
  show StableHlo.after hostOps1 (W2 m ρ c) (Proc.devRef .tc main_v30) = _
  after_results_simp
  rw [W2_of_ne m ρ c main_v7 (by decide), entry0_deg]
  rfl

set_option maxHeartbeats 1000000 in
theorem entry1_arg5 : W3 m ρ c (Proc.devRef .tc main_arg5) = arg5 m c := by
  show StableHlo.after hostOps1 (W2 m ρ c) (Proc.devRef .tc main_arg5) = _
  after_results_simp
  rw [W2_of_ne m ρ c main_arg5 (by decide)]
  exact entry0_arg5 m ρ c
set_option maxHeartbeats 1000000 in
theorem entry1_arg6 : W3 m ρ c (Proc.devRef .tc main_arg6) = arg6 m c := by
  show StableHlo.after hostOps1 (W2 m ρ c) (Proc.devRef .tc main_arg6) = _
  after_results_simp
  rw [W2_of_ne m ρ c main_arg6 (by decide)]
  exact entry0_arg6 m ρ c
set_option maxHeartbeats 1000000 in
theorem entry1_arg7 : W3 m ρ c (Proc.devRef .tc main_arg7) = arg7 m c := by
  show StableHlo.after hostOps1 (W2 m ρ c) (Proc.devRef .tc main_arg7) = _
  after_results_simp
  rw [W2_of_ne m ρ c main_arg7 (by decide)]
  exact entry0_arg7 m ρ c

/-! ## The result -/

/-- At the last boundary the result buffer holds the reference's result of the arguments. -/
theorem result_eq : W4 m ρ c (Proc.devRef .tc main_v31)
    = val_main_v55 (F := Ideal) (arg0 m c) (arg1 m c) (arg2 m c) (arg3 m c) (arg4 m c) (arg5 m c) (arg6 m c) (arg7 m c) := by
  refine (W4_arr m ρ c 6).trans ((final1 (V3 m ρ) c).trans ?_)
  show sageLayer (W3 m ρ c (Proc.devRef .tc main_v19)) (W3 m ρ c (Proc.devRef .tc main_v29))
      (col0 (W3 m ρ c (Proc.devRef .tc main_v30))) (W3 m ρ c (Proc.devRef .tc main_arg5))
      (W3 m ρ c (Proc.devRef .tc main_arg7)) (W3 m ρ c (Proc.devRef .tc main_arg6)) = _
  rw [entry1_feat, entry1_sums, entry1_degcol, entry1_arg5, entry1_arg6, entry1_arg7, col0_shapeCast,
    Cert.Sage.Ref.layer2_eq, deg_again]

end Cert.Sage.Ker

end
-- ==== Proof.lean ====
/-
  A two-layer GraphSAGE encoder with mean aggregation, as a Pallas kernel against its jnp reference: equal at the
  extended reals.

  Both programs compute, for each layer, `relu((S / max(deg, 1)) · W_l + b + X · W_r)`: `S` the rows of the features
  `X` gathered at the edges' sources and scatter-added at their targets, `deg` the in-degrees (ones scatter-added at the
  targets). The kernel leaves the gather and the scatter-add to the host — the very operations the reference runs — and
  computes only the dense half in a pallas_call per layer, in blocks of rows. A row of the dense half reads only its own
  row of `S`, `X` and `deg`, so the blocks are restrictions of one whole-array function (`Sage.sageLayer`), which is also
  what the reference's `dot_general`s, broadcasts and `maximum` spell out; the kernel's casts to `bf16` are the identity
  here. Both sides being one formula, no law of the extended reals is needed and the inputs' finiteness is never used.

  The three frames are the generated ones (the reference's is its generated run with the result dropped); the ideal
  pass rewrote nothing, so `preserves` is trivial; `algebraic` sets the kernel's run, its result named at the last
  boundary of @main's four segments (`Sage.Ker.run_result`, `Sage.Ker.result_eq`), beside the reference's generated run.
-/
import proofs.«157340_j34634616274989_2_alg».proof.Defs
import proofs.«157340_j34634616274989_2_alg».proof.Proof.Gen.Kernel
import proofs.«157340_j34634616274989_2_alg».proof.Proof.Gen.Kernel.Skeleton
import proofs.«157340_j34634616274989_2_alg».proof.Proof.Gen.Kernel.Launch
import proofs.«157340_j34634616274989_2_alg».proof.Proof.Gen.Kernel.Points
import proofs.«157340_j34634616274989_2_alg».proof.Proof.Gen.Kernel.Frame
import proofs.«157340_j34634616274989_2_alg».proof.Proof.Gen.KernelIdeal
import proofs.«157340_j34634616274989_2_alg».proof.Proof.Gen.KernelIdeal.Skeleton
import proofs.«157340_j34634616274989_2_alg».proof.Proof.Gen.KernelIdeal.Launch
import proofs.«157340_j34634616274989_2_alg».proof.Proof.Gen.KernelIdeal.Points
import proofs.«157340_j34634616274989_2_alg».proof.Proof.Gen.KernelIdeal.Frame
import proofs.«157340_j34634616274989_2_alg».proof.Proof.Gen.ReferenceIdeal
import proofs.«157340_j34634616274989_2_alg».proof.Proof.Gen.Pre_finite_inputs
import proofs.«157340_j34634616274989_2_alg».proof.Proof.Gen.ReferenceIdeal.Run
import proofs.«157340_j34634616274989_2_alg».proof.Proof.Gen.ReferenceIdeal.Read
import proofs.«157340_j34634616274989_2_alg».proof.Proof.KernelRun
import proofs.«157340_j34634616274989_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference is a host program: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with one result: the kernel's result buffer holds,
    at the end of its run, the reference's own function of the arguments. -/
theorem algebraic : Cert.algebraic_KernelIdeal_ReferenceIdeal := by
  intro m ρ m' ρ' _ hagree
  refine ⟨fun c => Cert.KernelIdeal.Gen.W4 m ρ c (Proc.devRef .tc Cert.KernelIdeal.main_v31),
    Cert.Sage.Ker.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v55_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.Sage.Ker.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
